-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x224x224 : Shape := ⟨4, ![8, 96, 224, 224]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel

variable [Facts]

def fn {F : FTy → Type} [FloatOps F] (main_arg0 : FVec F S8x96x224x224 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  main_v3
-- ==== Kernel.lean ====
abbrev S8x96x224x224 : Shape := ⟨4, ![8, 96, 224, 224]⟩
abbrev S1x48x224x224 : Shape := ⟨4, ![1, 48, 224, 224]⟩

abbrev nBuf : Space → Nat
  | .hbm => 2
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S8x96x224x224, .f32⟩
  | .local _ .vmem, ⟨0, _⟩ => ⟨S1x48x224x224, .f32⟩
  | .local _ .vmem, ⟨1, _⟩ => ⟨S1x48x224x224, .f32⟩
  | .local _ .vmem, ⟨2, _⟩ => ⟨S1x48x224x224, .f32⟩
  | .local _ .vmem, ⟨3, _⟩ => ⟨S1x48x224x224, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x48x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x48x224x224_S1x48x224x224_0_0_0_0 : ∀ a, (![0, 0, 0, 0] : Fin 4 → Nat) a + S1x48x224x224.size a ≤ S1x48x224x224.size a
  h_S1x48x224x224 : 0 < S1x48x224x224.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x224x224.size a ≤ S8x96x224x224.size a
  hwx0_0 : ∀ i : grid0.Coords, EltTy.bits .f32 = 32 ∨ (Rect.block (s := S8x96x224x224) S1x48x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x224x224.size a ≤ S8x96x224x224.size a
  hwx0_1 : ∀ i : grid0.Coords, EltTy.bits .f32 = 32 ∨ (Rect.block (s := S8x96x224x224) S1x48x224x224.size (cc0_transform_1 i) (hinb0_1 i)).WholeWords (EltTy.packing .f32)

variable [Facts₀]

abbrev win0_0 : Pipeline.Window sig grid0 :=
  Pipeline.Window.ofSpec (Memref.whole main_arg0) S1x48x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x48x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x96x224x224 : Shape := ⟨4, ![8, 96, 224, 224]⟩

abbrev nBuf : Space → Nat
  | .hbm => 1
  | .vmem => 0
  | .smem => 0
  | _ => 0

abbrev bufTy : (tb : Table) → Fin (tcTables nBuf tb) → BufTy
  | .hbm, ⟨0, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.CopyValue.lean ====
/-
  The kernel copies its argument array block by block. The array f32[8, 96, 224, 224] is cut into
  8 × 2 blocks of shape [1, 48, 224, 224]; grid point (i, j) stages block (i, j, 0, 0) of the argument,
  the body stores what it loaded, unchanged, into the output's staging buffer, and that buffer is written
  back to block (i, j, 0, 0) of the result. The input and output windows have the SAME index map, so what
  point `t` writes back is block `t` of the argument array itself; the sixteen blocks tile the array (batch
  index `i` on axis 0, channel half `c / 48` on axis 1, the last two axes whole), so after the run the
  result array IS the argument array, at any float instance.
-/
import proofs.«144772_g35373350650244_cont_8to1_b_1257_13_alg».proof.Proof.Gen.KernelIdeal.Value

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store go through the whole staging buffer: all offsets are zero. -/
theorem zero_offsets : (![0, 0, 0, 0] : Fin 4 → Nat) = fun _ => 0 := funext fun a => by fin_cases a <;> rfl

/-- At every grid point the input window and the output window sit on the same block of their arrays. -/
theorem same_index : ∀ t : Fin cfg0.N, win0_0.index t = win0_1.index t :=
  (by decide +kernel : ∀ t : Fin grid0.N, win0_0.index t = win0_1.index t)

/-- Every block position (batch index, channel half) is some grid point's. -/
theorem index_onto : ∀ (q0 : Fin 8) (q1 : Fin 2), ∃ t : Fin cfg0.N, win0_1.index t = ![q0.val, q1.val, 0, 0] :=
  (by decide +kernel : ∀ (q0 : Fin 8) (q1 : Fin 2), ∃ t : Fin grid0.N, win0_1.index t = ![q0.val, q1.val, 0, 0])

/-- WHAT POINT `t` WRITES BACK is block `t` of the argument array: the body's store is its load, and the input
    block's elements sit in the argument array where the output block's sit in the result array. -/
theorem flushed_eq (c : Dev nD) (t : Fin cfg0.N) :
    (dats m 0 c).flushed 1 t = ((cfg0.win 1).blk t).view.read (Elt F) (V m c main_arg0) := by
  rw [Value.flushed1]
  unfold out0_1
  rw [View.canon_unit_zero zero_offsets]
  simp only [View.ld_unit_zero (S := S1x48x224x224) zero_offsets]
  have e := same_index t
  funext j
  show V m c main_arg0 (((cfg0.win 0).blk t).view.emb j) = V m c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 4) * 1 + 1 * (j 0).val = win0_1.index t (0 : Fin 4) * 1 + 1 * (j 0).val; rw [e]
    | ⟨1, _⟩ => show win0_0.index t (1 : Fin 4) * 48 + 1 * (j 1).val = win0_1.index t (1 : Fin 4) * 48 + 1 * (j 1).val; rw [e]
    | ⟨2, _⟩ => show win0_0.index t (2 : Fin 4) * 224 + 1 * (j 2).val = win0_1.index t (2 : Fin 4) * 224 + 1 * (j 2).val; rw [e]
    | ⟨3, _⟩ => show win0_0.index t (3 : Fin 4) * 224 + 1 * (j 3).val = win0_1.index t (3 : Fin 4) * 224 + 1 * (j 3).val; rw [e]
  rw [h]

/-- An index of the result array is in point `t`'s block iff each coordinate is in the block's range on its axis. -/
theorem mem_block (t : Fin cfg0.N) (i : S8x96x224x224.Idx) :
    i ∈ ((cfg0.win 1).blk t).view.set ↔ ∀ a : Fin 4, win0_1.index t a * S1x48x224x224.size a ≤ (i a).val ∧ (i a).val < win0_1.index t a * S1x48x224x224.size a + S1x48x224x224.size a := by
  show i ∈ ((View.whole main_v0).slice (win0_1.rect t)).set ↔ _
  rw [View.set_slice_whole, Rect.mem_set_unit]
  exact Iff.rfl

/-- THE BLOCKS TILE THE ARRAY: index (b, c, h, w) lies in the block of the point at block position (b, c / 48, 0, 0). -/
theorem cover (i : S8x96x224x224.Idx) :
    ∃ t : Fin cfg0.N, (cfg0.win 1).flush t = true ∧ i ∈ ((cfg0.win 1).blk t).view.set := by
  have hi0 : (i 0).val < 8 := (i 0).isLt
  have hi1 : (i 1).val < 96 := (i 1).isLt
  have hi2 : (i 2).val < 224 := (i 2).isLt
  have hi3 : (i 3).val < 224 := (i 3).isLt
  obtain ⟨t, ht⟩ := index_onto ⟨(i 0).val, hi0⟩ ⟨(i 1).val / 48, by omega⟩
  have q0 : win0_1.index t (0 : Fin 4) = (i 0).val := congrFun ht 0
  have q1 : win0_1.index t (1 : Fin 4) = (i 1).val / 48 := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 48 ≤ (i 1).val ∧ (i 1).val < win0_1.index t (1 : Fin 4) * 48 + 48; omega
  | ⟨2, _⟩ => show win0_1.index t (2 : Fin 4) * 224 ≤ (i 2).val ∧ (i 2).val < win0_1.index t (2 : Fin 4) * 224 + 224; omega
  | ⟨3, _⟩ => show win0_1.index t (3 : Fin 4) * 224 ≤ (i 3).val ∧ (i 3).val < win0_1.index t (3 : Fin 4) * 224 + 224; omega

/-- THE RESULT ARRAY after the run is the argument array. -/
theorem final (c : Dev nD) : (dats m 0 c).arrAt 1 cfg0.N = V m c main_arg0 :=
  (dats m 0 c).arrAt_eq_of_cover 1 (V m c main_arg0) (fun t _ => flushed_eq m c t) cover

/-- Every weakly fair execution of the kernel's program terminates with the result buffer holding the argument
    array and the argument buffer unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Copy

end
-- ==== Proof.RefIdentity.lean ====
/-
  The reference returns its argument: its entry function performs no operation at all. Every execution
  therefore ends at once in the memory it started from, so the result buffer — which IS the argument
  buffer — holds the argument array, and nothing has been written.
-/
import proofs.«144772_g35373350650244_cont_8to1_b_1257_13_alg».proof.Proof.Gen.ReferenceIdeal
import Idealize.ShloMosaic.Lib.StableHlo.Run

noncomputable section

namespace Cert.ReferenceIdeal.Identity

open Cert.ReferenceIdeal Cert.ReferenceIdeal.Gen Idealize.ShloMosaic Idealize.ShloMosaic.TcCoe Idealize.SL.Sem Idealize.ShloMosaic.StableHlo

variable {F : FTy → Type} [FloatOps F]

/-- The entry function is the empty straight line of host operations. -/
theorem main_eq (c : Dev nD) : main (F := F) c = seq [] := rfl

/-- The program has no scoped buffer and no scoped semaphore (it has no kernel). -/
theorem scopedRefs_eq : (Finset.univ.filter fun b : Ref sig .tc => b.isScoped) = ∅ := by decide
theorem scopedSems_eq : (Finset.univ.filter fun sm : SemLoc sig => sm.isScoped .tc) = ∅ := by decide

/-- From any memory, every weakly fair execution terminates with the argument array as it was: the empty
    line of operations rewrites no buffer. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => []) main_eq (fun _ => trivial) m ρ
      (fun _ _ h => nomatch h))

end Cert.ReferenceIdeal.Identity

end
-- ==== Proof.lean ====
/-
  The kernel is a copy and the reference is the identity, so the two programs compute the same function of
  the argument array `x : f32[8, 96, 224, 224]`: `x` itself.

  * The kernel cuts `x` into 8 × 2 blocks of shape [1, 48, 224, 224] and, at each grid point, stores the block
    it loaded, unchanged, into the same block of the result; the blocks tile the array, so the result array
    after the run is `x` (`Cert.KernelIdeal.Copy.run`, over the kernel's frame run).
  * The reference performs no operation and returns its argument buffer, which holds `x`
    (`Cert.ReferenceIdeal.Identity.run`).

  No arithmetic is done on either side, so the equality holds for every extended-real input and the
  finiteness precondition is never used. The three frame claims are the runs above with the result
  forgotten; the idealization rewrote no operation, so that conjunct is trivial.
-/
import proofs.«144772_g35373350650244_cont_8to1_b_1257_13_alg».proof.Defs
import proofs.«144772_g35373350650244_cont_8to1_b_1257_13_alg».proof.Proof.Gen.Kernel
import proofs.«144772_g35373350650244_cont_8to1_b_1257_13_alg».proof.Proof.Gen.Kernel.Skeleton
import proofs.«144772_g35373350650244_cont_8to1_b_1257_13_alg».proof.Proof.Gen.Kernel.Launch
import proofs.«144772_g35373350650244_cont_8to1_b_1257_13_alg».proof.Proof.Gen.Kernel.Points
import proofs.«144772_g35373350650244_cont_8to1_b_1257_13_alg».proof.Proof.Gen.Kernel.Frame
import proofs.«144772_g35373350650244_cont_8to1_b_1257_13_alg».proof.Proof.Gen.KernelIdeal
import proofs.«144772_g35373350650244_cont_8to1_b_1257_13_alg».proof.Proof.Gen.KernelIdeal.Skeleton
import proofs.«144772_g35373350650244_cont_8to1_b_1257_13_alg».proof.Proof.Gen.KernelIdeal.Launch
import proofs.«144772_g35373350650244_cont_8to1_b_1257_13_alg».proof.Proof.Gen.KernelIdeal.Points
import proofs.«144772_g35373350650244_cont_8to1_b_1257_13_alg».proof.Proof.Gen.KernelIdeal.Frame
import proofs.«144772_g35373350650244_cont_8to1_b_1257_13_alg».proof.Proof.Gen.KernelIdeal.Value
import proofs.«144772_g35373350650244_cont_8to1_b_1257_13_alg».proof.Proof.Gen.ReferenceIdeal
import proofs.«144772_g35373350650244_cont_8to1_b_1257_13_alg».proof.Proof.Gen.Pre_finite_inputs
import proofs.«144772_g35373350650244_cont_8to1_b_1257_13_alg».proof.Proof.CopyValue
import proofs.«144772_g35373350650244_cont_8to1_b_1257_13_alg».proof.Proof.RefIdentity
import Idealize.ShloMosaic.Adequacy
import Idealize.ShloMosaic.Init

noncomputable section

namespace Cert.Proof

open Idealize.ShloMosaic Idealize.SL.Sem Cert.Kernel

/-- The word-level kernel runs, faults nowhere and leaves its argument array unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference does nothing, so it terminates with its argument array as it was. -/
theorem frame_referenceIdeal : Cert.frame_ReferenceIdeal := fun m ρ _ =>
  Cert.ReferenceIdeal.Identity.run (F := Ideal) m ρ

/-- Over the extended reals, from memories that agree on `x`, both programs end with `x` in their result
    buffer: the kernel's result array is the argument array (the copy), and the reference's result buffer is
    its argument buffer, which by the agreement holds the same `x`. -/
theorem algebraic : Cert.algebraic_KernelIdeal_ReferenceIdeal := by
  intro m ρ m' ρ' _ hagree
  refine ⟨_, Cert.KernelIdeal.Copy.run (F := Ideal) m ρ, ?_⟩
  exact (θ_run Cert.ReferenceIdeal.defs _ _).mono (fun _ h c => ⟨(h c).trans (hagree c), h c⟩)
    (Cert.ReferenceIdeal.Identity.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
